-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4x2048x4096 .f32) (main_arg1 : FVec F S4096x4096 .f32) (main_arg2 : IVec S4096x4096 1) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4x2048x4096 : Shape := ⟨3, ![4, 2048, 4096]⟩
abbrev S4096x4096 : Shape := ⟨2, ![4096, 4096]⟩
abbrev S8192x4096 : Shape := ⟨2, ![8192, 4096]⟩
abbrev S1024x512 : Shape := ⟨2, ![1024, 512]⟩
abbrev S2048x512 : Shape := ⟨2, ![2048, 512]⟩
abbrev S1024x2048 : Shape := ⟨2, ![1024, 2048]⟩
abbrev S512x2048 : Shape := ⟨2, ![512, 2048]⟩

abbrev nBuf : Space → Nat
  | .hbm => 10
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x4096, .i1⟩
  | .hbm, ⟨3, _⟩ => ⟨S4096x4096, .f32⟩
  | .hbm, ⟨4, _⟩ => ⟨S4096x4096, .f32⟩
  | .hbm, ⟨5, _⟩ => ⟨S4096x4096, .bf16⟩
  | .hbm, ⟨6, _⟩ => ⟨S4x2048x4096, .bf16⟩
  | .hbm, ⟨7, _⟩ => ⟨S8192x4096, .bf16⟩
  | .hbm, ⟨8, _⟩ => ⟨S8192x4096, .f32⟩
  | .hbm, ⟨9, _⟩ => ⟨S4x2048x4096, .f32⟩
  | .local _ .vmem, ⟨0, _⟩ => ⟨S1024x512, .bf16⟩
  | .local _ .vmem, ⟨1, _⟩ => ⟨S1024x512, .bf16⟩
  | .local _ .vmem, ⟨2, _⟩ => ⟨S2048x512, .bf16⟩
  | .local _ .vmem, ⟨3, _⟩ => ⟨S2048x512, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bitsLt_bf16_f32 : FTy.bits .bf16 < FTy.bits .f32
  shapeCasts_S4x2048x4096_S8192x4096 : S4x2048x4096.ShapeCasts S8192x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  transposes_S2048x512_p1_0_S512x2048 : S2048x512.Transposes [1, 0] S512x2048
  shapeCasts_S8192x4096_S4x2048x4096 : S8192x4096.ShapeCasts S4x2048x4096
  dot_S1024x512_S512x2048_S1024x2048_1_0_0_1_n_n_wf : DotDims.WF S1024x512 S512x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .bf16 = 32 ∨ (Rect.block (s := S8192x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S4096x4096.size a
  hwx0_1 : ∀ i : grid0.Coords, EltTy.bits .bf16 = 32 ∨ (Rect.block (s := S4096x4096) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S8192x4096.size a
  hwx0_2 : ∀ i : grid0.Coords, EltTy.bits .f32 = 32 ∨ (Rect.block (s := S8192x4096) S1024x2048.size (cc0_transform_2 i) (hinb0_2 i)).WholeWords (EltTy.packing .f32)

variable [Facts₀]

def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf

abbrev win0_0 : Pipeline.Window sig grid0 :=
  Pipeline.Window.ofSpec (Memref.whole main_v4) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x4096, .i1⟩
  | .hbm, ⟨3, _⟩ => ⟨S4096x4096, .f32⟩
  | .hbm, ⟨4, _⟩ => ⟨S4096x4096, .f32⟩
  | .hbm, ⟨5, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
/-
  The specification, and the one law of sums the proof needs.

  Masked linear layer: with x of shape [4, 2048, 4096], a weight and a mask of shape [4096, 4096],

      result (b, s, o) = Σ_{r < 4096} x (b, s, r) · (weight (o, r) · float (mask (o, r))).

  Seen from the kernel, x is re-laid as an [8192, 4096] matrix A (row 2048·b + s) and the masked weight is a
  [4096, 4096] matrix B, and the result entry at (M, N) is the product of row M of A with row N of B. The kernel
  reaches it 512 terms at a time: the sum over the first a + 512 positions is the sum over the first a positions plus
  the next 512 terms. That is a statement about finite sums in a commutative monoid, true of the extended reals
  without any finiteness assumption.
-/
import Idealize.ShloMosaic.PureOps.Ideal
import Idealize.ShloMosaic.Lib.ValueIdx

noncomputable section

namespace Cert.MaskedLinear

open Idealize.ShloMosaic Idealize.ShloMosaic.ValueIdx

abbrev SX : Shape := ⟨3, ![4, 2048, 4096]⟩
abbrev SW : Shape := ⟨2, ![4096, 4096]⟩
abbrev SA : Shape := ⟨2, ![8192, 4096]⟩

/-- The result as one function of the three arguments. -/
def result (x : SX.Idx → EReal) (w : SW.Idx → EReal) (mask : SW.Idx → Elt Ideal .i1) : SX.Idx → EReal :=
  fun i => ∑ r : Fin 4096, x (ix3 (i 0) (i 1) r) * (w (ix2 (i 2) r) * FloatOps.uitofp (F := Ideal) .f32 (mask (ix2 (i 2) r)))

/-- Row M of A times row N of B. -/
def rowProduct (A : SA.Idx → EReal) (B : SW.Idx → EReal) (M : Fin 8192) (N : Fin 4096) : EReal :=
  ∑ r : Fin 4096, A (ix2 M r) * B (ix2 N r)

/-- One term of that product, as a function of natural numbers (zero outside the arrays), so that partial sums can be
    taken over initial segments of the naturals. -/
def term (A : SA.Idx → EReal) (B : SW.Idx → EReal) (M N r : ℕ) : EReal :=
  if h : M < 8192 ∧ N < 4096 ∧ r < 4096 then A (ix2 ⟨M, h.1⟩ ⟨r, h.2.2⟩) * B (ix2 ⟨N, h.2.1⟩ ⟨r, h.2.2⟩) else 0

theorem term_eq (A : SA.Idx → EReal) (B : SW.Idx → EReal) (M N r : ℕ) (hM : M < 8192) (hN : N < 4096) (hr : r < 4096) :
    term A B M N r = A (ix2 ⟨M, hM⟩ ⟨r, hr⟩) * B (ix2 ⟨N, hN⟩ ⟨r, hr⟩) := dif_pos ⟨hM, hN, hr⟩

/-- The sum over the first a + 512 positions is the sum over the first a, plus the next 512 terms. -/
theorem sum_extend (f : ℕ → EReal) (a : ℕ) :
    ∑ r ∈ Finset.range (a + 512), f r = ∑ r ∈ Finset.range a, f r + ∑ q : Fin 512, f (a + q.val) := by
  rw [Finset.sum_range_add, Finset.sum_range (fun x => f (a + x))]

/-- The first 512 terms alone. -/
theorem sum_first (f : ℕ → EReal) : ∑ r ∈ Finset.range 512, f r = ∑ q : Fin 512, f q.val :=
  Finset.sum_range f

/-- All 4096 terms are the row product. -/
theorem sum_all (A : SA.Idx → EReal) (B : SW.Idx → EReal) (M : Fin 8192) (N : Fin 4096) :
    ∑ r ∈ Finset.range 4096, term A B M.val N.val r = rowProduct A B M N := by
  rw [Finset.sum_range]
  exact Finset.sum_congr rfl fun r _ => term_eq A B M.val N.val r.val M.isLt N.isLt r.isLt

end Cert.MaskedLinear

end
-- ==== Proof.RefValue.lean ====
/-
  The reference at the ideal instance, read index by index: its result at (b, s, o) is the sum over the
  contracted axis r of x (b, s, r) · (weight (o, r) · float (mask (o, r))) — the specification itself. The
  contraction reads the left operand at (b, s, r) and the right operand at (o, r).
-/
import proofs.«168619_j66005057405275_2_alg».proof.Defs
import proofs.«168619_j66005057405275_2_alg».proof.Proof.Gen.ReferenceIdeal.Read
import proofs.«168619_j66005057405275_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Read Idealize.ShloMosaic Idealize.SL.Sem
open Idealize.ShloMosaic.ValueIdx Cert.MaskedLinear

/-- The left operand's index at output (b, s, o) and contraction position r. -/
theorem left_index_eq (i : S4x2048x4096.Idx) (r : Fin 4096) : lidx_main_v2 i r = ix3 (i 0) (i 1) r :=
  funext fun a => Fin.ext (by match a with | ⟨0, _⟩ => rfl | ⟨1, _⟩ => rfl | ⟨2, _⟩ => rfl)

/-- The right operand's. -/
theorem right_index_eq (i : S4x2048x4096.Idx) (r : Fin 4096) : ridx_main_v2 i r = ix2 (i 2) r :=
  funext fun a => Fin.ext (by match a with | ⟨0, _⟩ => rfl | ⟨1, _⟩ => rfl)

/-- The reference's result is the specification of its three arguments. -/
theorem reference_eq (x : (⟨S4x2048x4096, .f32⟩ : BufTy).Contents (Elt Ideal)) (w : (⟨S4096x4096, .f32⟩ : BufTy).Contents (Elt Ideal))
    (mask : (⟨S4096x4096, .i1⟩ : BufTy).Contents (Elt Ideal)) :
    val_main_v2 (F := Ideal) x w mask = result x w mask := by
  funext i
  rw [val_main_v2_apply]
  unfold result
  refine Finset.sum_congr rfl fun r _ => ?_
  rw [val_main_v1_apply, val_main_v0_apply, left_index_eq, right_index_eq]
  rfl

end Cert.ReferenceIdeal.RefValue

end
-- ==== Proof.Payload.lean ====
/-
  The kernel body's arithmetic, read at one index at the ideal instance.

  The body loads an [1024, 512] block of the left operand and a [2048, 512] block of the right operand (both stored
  row-major with the contracted axis last), transposes the right block, multiplies them into a zero accumulator, and
  adds the product to the accumulator it carries. At the entry (p, n) of the [1024, 2048] accumulator that is

      acc (p, n) + Σ_{q < 512} left (p, q) · right (n, q).

  The other payload is the zero block that the first step of a run stores before accumulating.
-/
import proofs.«168619_j66005057405275_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- The dimension record of the body's product: [1024, 512] × [512, 2048] → [1024, 2048], one contracted axis. -/
abbrev D := dot_S1024x512_S512x2048_S1024x2048_1_0_0_1_n_n

/-- The zero block is zero everywhere. -/
theorem zero_block_apply (j : S1024x2048.Idx) : k0_pay1 (F := Ideal) j = 0 := by
  unfold k0_pay1
  rw [shapeCast_self]
  exact Ideal.ofBits_zero_f32

/-- Coordinates of the product's operand indices: the left operand is read at (row of the output, contraction position),
    the right operand (the transposed block, [512, 2048]) at (contraction position, column of the output). -/
theorem lhs_row (j : S1024x2048.Idx) (k : D.contr.Idx) : (D.lhsIdx j k 0).val = (j 0).val := by
  unfold DotDims.lhsIdx
  rw [dif_neg (show ¬(0 : Fin S1024x512.rank) ∈ D.lhsBatch by decide),
    dif_pos (show (0 : Fin S1024x512.rank) ∈ D.lhsNonContracting by decide)]
  rfl
theorem lhs_contr (j : S1024x2048.Idx) (k : D.contr.Idx) : (D.lhsIdx j k 1).val = (k ⟨0, by decide⟩).val :=
  D.lhsIdx_val_of_single rfl j k
theorem rhs_contr (j : S1024x2048.Idx) (k : D.contr.Idx) : (D.rhsIdx j k 0).val = (k ⟨0, by decide⟩).val :=
  D.rhsIdx_val_of_single rfl j k
theorem rhs_col (j : S1024x2048.Idx) (k : D.contr.Idx) : (D.rhsIdx j k 1).val = (j 1).val := by
  unfold DotDims.rhsIdx
  rw [dif_neg (show ¬(1 : Fin S512x2048.rank) ∈ D.rhsBatch by decide),
    dif_pos (show (1 : Fin S512x2048.rank) ∈ D.rhsNonContracting by decide)]
  rfl

/-- The left operand of the product at output entry (p, n) and contraction position q is the left block at (p, q). -/
theorem lhs_at (p : Fin 1024) (n : Fin 2048) (q : Fin 512) :
    D.lhsIdx (ix2 p n) ((contrEquiv1 D 512 rfl rfl).symm q) = ix2 p q :=
  funext fun a => Fin.ext (by
    match a with
    | ⟨0, _⟩ => exact lhs_row _ _
    | ⟨1, _⟩ => exact (lhs_contr _ _).trans (contrEquiv1_symm_val D 512 rfl rfl q))

/-- The right operand is read at (q, n). -/
theorem rhs_at (p : Fin 1024) (n : Fin 2048) (q : Fin 512) :
    D.rhsIdx (ix2 p n) ((contrEquiv1 D 512 rfl rfl).symm q) = ix2 q n :=
  funext fun a => Fin.ext (by
    match a with
    | ⟨0, _⟩ => exact (rhs_contr _ _).trans (contrEquiv1_symm_val D 512 rfl rfl q)
    | ⟨1, _⟩ => exact rhs_col _ _)

/-- One accumulation step at the entry (p, n): the carried value plus the 512-term product of row p of the left block
    with row n of the right block. -/
theorem step_apply (acc : Vec Ideal S1024x2048 .f32) (left : Vec Ideal S1024x512 .bf16) (right : Vec Ideal S2048x512 .bf16)
    (p : Fin 1024) (n : Fin 2048) :
    k0_pay2 (F := Ideal) acc left right (ix2 p n) = acc (ix2 p n) + ∑ q : Fin 512, left (ix2 p q) * right (ix2 n q) := by
  unfold k0_pay2
  simp only [shapeCast_self]
  rw [addf_apply]
  simp only [matmul]
  rw [Ideal.matmul_constant_zero_apply, ← Equiv.sum_comp (contrEquiv1 D 512 rfl rfl).symm]
  refine congrArg (acc (ix2 p n) + ·) (Finset.sum_congr rfl fun q _ => ?_)
  rw [lhs_at, rhs_at, transpose_ix2_apply]

end Cert.KernelIdeal.Body

end
-- ==== Proof.Cases.lean ====
/-
  What each control case of the kernel body leaves behind, as a value.

  The body runs in one of three ways, decided by the position k of the grid point along the contracted axis:
    first step (k = 0):      the accumulator is overwritten with zero, then one accumulation step is applied to it;
    middle step (0 < k < 7): one accumulation step is applied to the accumulator the previous point left;
    last step (k = 7):       the same, and the accumulator is then copied into the output block.
  In every case the accumulator ends holding one accumulation step (the body's second payload) applied to the
  right starting value, and in the last case the output block holds the same thing. These statements hold for any
  interpretation of the float operations.
-/
import proofs.«168619_j66005057405275_2_alg».proof.Proof.Gen.KernelIdeal.Frame
import Idealize.ShloMosaic.Lib.Pipeline.Value
import Idealize.ShloMosaic.Lib.Tactic

noncomputable section

namespace Cert.KernelIdeal.Body

open Cert.KernelIdeal Cert.KernelIdeal.Gen Idealize.ShloMosaic Idealize.ShloMosaic.TcCoe Idealize.SL.Sem
open Idealize.ShloMosaic.Tactic

variable {F : FTy → Type} [FloatOps F]

/-- Every load and store of the body addresses its buffer from the origin. -/
theorem hz : (![0, 0] : Fin 2 → Nat) = fun _ => 0 := funext fun a => by fin_cases a <;> rfl

/-- First step: the accumulator ends at one step applied to the zero block. The step's carried operand is a read-back
    of the zero block just stored. -/
theorem acc_first (c : Dev nD) (i : grid0.Coords) (a3 : Memref sig .tc .vmem S1024x512 .bf16) (h3 : a3.IsWhole) (a4 : Memref sig .tc .vmem S2048x512 .bf16) (h4 : a4.IsWhole) (a5 : Memref sig .tc .vmem S1024x2048 .f32) (h5 : a5.IsWhole) (a6 : Memref sig .tc .vmem S1024x2048 .f32) (h6 : a6.IsWhole) (hc0 : cond0_0 i) (hc1 : ¬cond0_1 i) (x0 : Vec F S1024x512 .bf16) (x1 : Vec F S2048x512 .bf16) :
    sout0_A_0 c i a3 h3 a4 h4 a5 h5 a6 h6 hc0 hc1 x0 x1 = k0_pay2 (k0_pay1 (F := F)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x2048) hz, View.readCov_unit_zero (S := S1024x2048) _ hz]
  simp only [View.readAt_eq_ld, h3.read_unread, h4.read_unread, View.ld_unit_zero (S := S1024x512) hz, View.ld_unit_zero (S := S2048x512) hz, View.ld_unit_zero (S := S1024x2048) hz]

/-- Middle step: the accumulator ends at one step applied to what it held. -/
theorem acc_middle (c : Dev nD) (i : grid0.Coords) (a3 : Memref sig .tc .vmem S1024x512 .bf16) (h3 : a3.IsWhole) (a4 : Memref sig .tc .vmem S2048x512 .bf16) (h4 : a4.IsWhole) (a5 : Memref sig .tc .vmem S1024x2048 .f32) (h5 : a5.IsWhole) (a6 : Memref sig .tc .vmem S1024x2048 .f32) (h6 : a6.IsWhole) (hc0 : ¬cond0_0 i) (hc1 : ¬cond0_1 i) (x0 : Vec F S1024x512 .bf16) (x1 : Vec F S2048x512 .bf16) (xs0 : Vec F S1024x2048 .f32) :
    sout0_B_0 c i a3 h3 a4 h4 a5 h5 a6 h6 hc0 hc1 x0 x1 xs0 = k0_pay2 xs0 x0 x1 := by
  unfold sout0_B_0
  rw [View.read_writes_eq_canon _ _ _ (scover0_B_0 c i a3 h3 a4 h4 a5 h5 a6 h6 hc0 hc1 x0 x1 xs0)]
  unfold kernelRun0_B
  dsimp only
  rw [View.canon_unit_zero hz]
  simp only [View.readAt_eq_ld, h3.read_unread, h4.read_unread, h6.read_unread, View.ld_unit_zero (S := S1024x512) hz, View.ld_unit_zero (S := S2048x512) hz, View.ld_unit_zero (S := S1024x2048) hz]

/-- Last step: the accumulator likewise; -/
theorem acc_last (c : Dev nD) (i : grid0.Coords) (a3 : Memref sig .tc .vmem S1024x512 .bf16) (h3 : a3.IsWhole) (a4 : Memref sig .tc .vmem S2048x512 .bf16) (h4 : a4.IsWhole) (a5 : Memref sig .tc .vmem S1024x2048 .f32) (h5 : a5.IsWhole) (a6 : Memref sig .tc .vmem S1024x2048 .f32) (h6 : a6.IsWhole) (hc0 : ¬cond0_0 i) (hc1 : cond0_1 i) (x0 : Vec F S1024x512 .bf16) (x1 : Vec F S2048x512 .bf16) (xs0 : Vec F S1024x2048 .f32) :
    sout0_C_0 c i a3 h3 a4 h4 a5 h5 a6 h6 hc0 hc1 x0 x1 xs0 = k0_pay2 xs0 x0 x1 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero hz]
  simp only [View.readAt_eq_ld, h3.read_unread, h4.read_unread, h6.read_unread, View.ld_unit_zero (S := S1024x512) hz, View.ld_unit_zero (S := S2048x512) hz, View.ld_unit_zero (S := S1024x2048) hz]

/-- and the output block is a read-back of that accumulator. -/
theorem out_last (c : Dev nD) (i : grid0.Coords) (a3 : Memref sig .tc .vmem S1024x512 .bf16) (h3 : a3.IsWhole) (a4 : Memref sig .tc .vmem S2048x512 .bf16) (h4 : a4.IsWhole) (a5 : Memref sig .tc .vmem S1024x2048 .f32) (h5 : a5.IsWhole) (a6 : Memref sig .tc .vmem S1024x2048 .f32) (h6 : a6.IsWhole) (hc0 : ¬cond0_0 i) (hc1 : cond0_1 i) (x0 : Vec F S1024x512 .bf16) (x1 : Vec F S2048x512 .bf16) (xs0 : Vec F S1024x2048 .f32) :
    out0_C_2 c i a3 h3 a4 h4 a5 h5 a6 h6 hc0 hc1 x0 x1 xs0 = k0_pay2 xs0 x0 x1 := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero hz, View.readCov_unit_zero (S := S1024x2048) _ hz]
  simp only [View.readAt_eq_ld, h3.read_unread, h4.read_unread, h6.read_unread, View.ld_unit_zero (S := S1024x512) hz, View.ld_unit_zero (S := S2048x512) hz, View.ld_unit_zero (S := S1024x2048) hz]

end Cert.KernelIdeal.Body

end
-- ==== Proof.Blocks.lean ====
/-
  Where the kernel's blocks sit in their arrays.

  The grid has 8 × 2 × 8 = 128 points; point t has coordinates (i, j, k) = (t / 16, (t / 8) mod 2, t mod 8). At that
  point the left window holds rows 1024·i … of columns 512·k … of the [8192, 4096] left array, the right window rows
  2048·j … of columns 512·k … of the [4096, 4096] right array, and the output window rows 1024·i …, columns 2048·j … of
  the [8192, 4096] result. The left array is the first argument, re-laid from [4, 2048, 4096] to [8192, 4096]; the
  right array is the second argument multiplied entry by entry with the mask converted to a float (the conversions to a
  narrower float format in between change nothing at the ideal instance).
-/
import proofs.«168619_j66005057405275_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

noncomputable section

namespace Cert.KernelIdeal.Body

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]
variable (m : (ℓ : Loc nD τ sig) → Buf (Elt F) ℓ)

/-! ## The index maps over the grid, in closed form -/

theorem left_index : ∀ t : Fin cfg0.N, win0_0.index t 0 = t.val / 16 ∧ win0_0.index t 1 = t.val % 8 :=
  (by decide +kernel : ∀ t : Fin grid0.N, win0_0.index t 0 = t.val / 16 ∧ win0_0.index t 1 = t.val % 8)
theorem right_index : ∀ t : Fin cfg0.N, win0_1.index t 0 = t.val / 8 % 2 ∧ win0_1.index t 1 = t.val % 8 :=
  (by decide +kernel : ∀ t : Fin grid0.N, win0_1.index t 0 = t.val / 8 % 2 ∧ win0_1.index t 1 = t.val % 8)
theorem out_index : ∀ t : Fin cfg0.N, win0_2.index t 0 = t.val / 16 ∧ win0_2.index t 1 = t.val / 8 % 2 :=
  (by decide +kernel : ∀ t : Fin grid0.N, win0_2.index t 0 = t.val / 16 ∧ win0_2.index t 1 = t.val / 8 % 2)

/-! ## The input blocks, entry by entry -/

/-- Entry (p, q) of the left block at point t is entry (1024·(t/16) + p, 512·(t mod 8) + q) of the left array. -/
theorem left_block_apply (c : Dev nD) (t : Fin cfg0.N) (p : Fin 1024) (q : Fin 512)
    (hM : 1024 * (t.val / 16) + p.val < 8192) (hr : 512 * (t.val % 8) + q.val < 4096) :
    (iblk m c 0 t : Vec F S1024x512 .bf16) (ix2 p q)
      = (V m c main_v4 : S8192x4096.Idx → Elt F .bf16) (ix2 ⟨1024 * (t.val / 16) + p.val, hM⟩ ⟨512 * (t.val % 8) + q.val, hr⟩) := by
  unfold iblk
  rw [View.read_apply]
  show V m c main_v4 _ = V m c main_v4 _
  congr 1
  funext a
  apply Fin.ext
  match a with
  | ⟨0, _⟩ => show win0_0.index t 0 * 1024 + 1 * p.val = 1024 * (t.val / 16) + p.val; rw [(left_index t).1]; omega
  | ⟨1, _⟩ => show win0_0.index t 1 * 512 + 1 * q.val = 512 * (t.val % 8) + q.val; rw [(left_index t).2]; omega

/-- Entry (n, q) of the right block at point t is entry (2048·((t/8) mod 2) + n, 512·(t mod 8) + q) of the right array. -/
theorem right_block_apply (c : Dev nD) (t : Fin cfg0.N) (n : Fin 2048) (q : Fin 512)
    (hN : 2048 * (t.val / 8 % 2) + n.val < 4096) (hr : 512 * (t.val % 8) + q.val < 4096) :
    (iblk m c 1 t : Vec F S2048x512 .bf16) (ix2 n q)
      = (V m c main_v2 : S4096x4096.Idx → Elt F .bf16) (ix2 ⟨2048 * (t.val / 8 % 2) + n.val, hN⟩ ⟨512 * (t.val % 8) + q.val, hr⟩) := by
  unfold iblk
  rw [View.read_apply]
  show V m c main_v2 _ = V m c main_v2 _
  congr 1
  funext a
  apply Fin.ext
  match a with
  | ⟨0, _⟩ => show win0_1.index t 0 * 2048 + 1 * n.val = 2048 * (t.val / 8 % 2) + n.val; rw [(right_index t).1]; omega
  | ⟨1, _⟩ => show win0_1.index t 1 * 512 + 1 * q.val = 512 * (t.val % 8) + q.val; rw [(right_index t).2]; omega

/-! ## The two staged arrays, from the arguments -/

/-- The left array is the first argument narrowed and re-laid as [8192, 4096]. -/
theorem left_array (c : Dev nD) : (V m c main_v4 : S8192x4096.Idx → Elt F .bf16)
    = shapeCast S8192x4096 (truncf .bf16 (m ((c : Thread nD τ).loc main_arg0)) Facts₀.bitsLt_bf16_f32) Facts₀.shapeCasts_S4x2048x4096_S8192x4096 := by
  show StableHlo.after hostOps0 (fun b => m (c, b)) (Proc.devRef .tc main_v4) = _
  after_results
  rfl

/-- The right array is the second argument times the mask as a float, narrowed. -/
theorem right_array (c : Dev nD) : (V m c main_v2 : S4096x4096.Idx → Elt F .bf16)
    = truncf .bf16 (mulf (m ((c : Thread nD τ).loc main_arg1)) (uitofp .f32 (m ((c : Thread nD τ).loc main_arg2)))) Facts₀.bitsLt_bf16_f32 := by
  show StableHlo.after hostOps0 (fun b => m (c, b)) (Proc.devRef .tc main_v2) = _
  after_results

end Cert.KernelIdeal.Body

end
-- ==== Proof.Accum.lean ====
/-
  The accumulator, point by point, at the ideal instance.

  Along a run of eight consecutive grid points (fixed output block (i, j), k = 0 … 7) the accumulator's entry (p, n)
  starts at 0 + (the first 512 terms) and gains the next 512 terms at every later point. So after the point with
  position k it holds the first 512·(k + 1) terms of the product of row 1024·i + p of the left array with row
  2048·j + n of the right array; after the last point of the run (k = 7) that is the whole row product, and the
  output block holds a copy of it.
-/
import proofs.«168619_j66005057405275_2_alg».proof.Proof.Payload
import proofs.«168619_j66005057405275_2_alg».proof.Proof.Cases
import proofs.«168619_j66005057405275_2_alg».proof.Proof.Blocks
import proofs.«168619_j66005057405275_2_alg».proof.Proof.Spec

noncomputable section

namespace Cert.KernelIdeal.Body

open Cert.KernelIdeal Cert.KernelIdeal.Gen Idealize.ShloMosaic Idealize.ShloMosaic.TcCoe Idealize.SL.Sem
open Idealize.ShloMosaic.ValueIdx Cert.MaskedLinear

variable (m : (ℓ : Loc nD τ sig) → Buf (Elt Ideal) ℓ)

/-- The left and right arrays as the region finds them. -/
abbrev leftArr (c : Dev nD) : SA.Idx → EReal := V m c main_v4
abbrev rightArr (c : Dev nD) : SW.Idx → EReal := V m c main_v2

/-- The two input blocks at a point, as vectors of extended reals. -/
abbrev leftBlk (c : Dev nD) (t : Fin cfg0.N) : Vec Ideal S1024x512 .bf16 := iblk m c 0 t
abbrev rightBlk (c : Dev nD) (t : Fin cfg0.N) : Vec Ideal S2048x512 .bf16 := iblk m c 1 t

/-- The 512 products a point contributes to entry (p, n). -/
def contribution (c : Dev nD) (t : Fin cfg0.N) (p : Fin 1024) (n : Fin 2048) : EReal :=
  ∑ q : Fin 512, leftBlk m c t (ix2 p q) * rightBlk m c t (ix2 n q)

theorem point_lt (t : Fin cfg0.N) : t.val < 128 := lt_of_lt_of_eq t.isLt (show cfg0.N = 128 from N_0)

/-- They are the terms at positions 512·k … 512·k + 511 of the row product. -/
theorem contribution_eq (c : Dev nD) (t : Fin cfg0.N) (p : Fin 1024) (n : Fin 2048) :
    contribution m c t p n
      = ∑ q : Fin 512, term (leftArr m c) (rightArr m c) (1024 * (t.val / 16) + p.val) (2048 * (t.val / 8 % 2) + n.val) (512 * (t.val % 8) + q.val) := by
  have ht := point_lt t
  unfold contribution
  refine Finset.sum_congr rfl fun q _ => ?_
  have hM : 1024 * (t.val / 16) + p.val < 8192 := by have := p.isLt; omega
  have hN : 2048 * (t.val / 8 % 2) + n.val < 4096 := by have := n.isLt; omega
  have hr : 512 * (t.val % 8) + q.val < 4096 := by have := q.isLt; omega
  exact (congrArg₂ (fun a b : EReal => a * b) (left_block_apply m c t p q hM hr) (right_block_apply m c t n q hN hr)).trans
    (term_eq (leftArr m c) (rightArr m c) _ _ _ hM hN hr).symm

/-- At the first point of a run the accumulator's entry is that point's contribution (added to zero). -/
theorem acc_at_first (c : Dev nD) (t : Fin cfg0.N) (h0 : t.val % 8 = 0) (p : Fin 1024) (n : Fin 2048) :
    (outsAt0 m c t.val t.isLt).2 (ix2 p n) = contribution m c t p n := by
  have h1 : ¬t.val % 8 = 7 := by omega
  rw [outsAt0_A m c t h0 h1]
  dsimp only
  refine (congrFun (acc_first (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) (ix2 p n)).trans ?_
  refine (step_apply (k0_pay1 (F := Ideal)) (leftBlk m c t) (rightBlk m c t) p n).trans ?_
  rw [zero_block_apply, zero_add]
  rfl

/-- At every later point it is the previous point's entry plus the contribution. -/
theorem acc_at_later (c : Dev nD) (t : Fin cfg0.N) (h0 : ¬t.val % 8 = 0) (p : Fin 1024) (n : Fin 2048) :
    (outsAt0 m c t.val t.isLt).2 (ix2 p n)
      = (outsAt0 m c (t.val - 1) (Nat.lt_of_le_of_lt (Nat.sub_le _ _) t.isLt)).2 (ix2 p n) + contribution m c t p n := by
  by_cases h1 : t.val % 8 = 7
  · rw [outsAt0_C m c t h0 h1]
    dsimp only
    refine (congrFun (acc_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) (ix2 p n)).trans ?_
    exact step_apply _ (leftBlk m c t) (rightBlk m c t) p n
  · rw [outsAt0_B m c t h0 h1]
    dsimp only
    refine (congrFun (acc_middle (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) (ix2 p n)).trans ?_
    exact step_apply _ (leftBlk m c t) (rightBlk m c t) p n

/-- At the last point of a run the output block is a copy of the accumulator. -/
theorem out_at_last (c : Dev nD) (t : Fin cfg0.N) (h1 : t.val % 8 = 7) (p : Fin 1024) (n : Fin 2048) :
    (outsAt0 m c t.val t.isLt).1 (ix2 p n) = (outsAt0 m c t.val t.isLt).2 (ix2 p n) := by
  have h0 : ¬t.val % 8 = 0 := by omega
  rw [outsAt0_C m c t h0 h1]
  dsimp only
  refine (congrFun (out_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) (ix2 p n)).trans ?_
  exact (congrFun (acc_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) (ix2 p n)).symm

/-- The partial row product after the point at position n: the first 512·(n mod 8 + 1) terms. -/
abbrev partialProduct (c : Dev nD) (n : ℕ) (p : Fin 1024) (n' : Fin 2048) : EReal :=
  ∑ r ∈ Finset.range (512 * (n % 8 + 1)), term (leftArr m c) (rightArr m c) (1024 * (n / 16) + p.val) (2048 * (n / 8 % 2) + n'.val) r

/-- THE ACCUMULATION: after every point the accumulator's entry is that partial product. By induction along the grid:
    a run's first point starts the sum, every later point extends it by 512 terms. -/
theorem acc_closed (c : Dev nD) (p : Fin 1024) (n' : Fin 2048) :
    ∀ (n : ℕ) (hn : n < cfg0.N), (outsAt0 m c n hn).2 (ix2 p n') = partialProduct m c n p n' := by
  have first : ∀ (n : ℕ) (hn : n < cfg0.N), n % 8 = 0 → (outsAt0 m c n hn).2 (ix2 p n') = partialProduct m c n p n' := by
    intro n hn h0
    refine (acc_at_first m c ⟨n, hn⟩ h0 p n').trans ?_
    refine (contribution_eq m c ⟨n, hn⟩ p n').trans ?_
    show ∑ q : Fin 512, term _ _ (1024 * (n / 16) + p.val) (2048 * (n / 8 % 2) + n'.val) (512 * (n % 8) + q.val) = _
    unfold partialProduct
    rw [show 512 * (n % 8 + 1) = 512 by omega, sum_first]
    exact Finset.sum_congr rfl fun q _ => by rw [show 512 * (n % 8) + q.val = q.val by omega]
  intro n
  induction n with
  | zero => exact fun hn => first 0 hn rfl
  | succ k ih =>
    intro hn
    by_cases h0 : (k + 1) % 8 = 0
    · exact first (k + 1) hn h0
    · have hk : k < cfg0.N := Nat.lt_of_succ_lt hn
      refine (acc_at_later m c ⟨k + 1, hn⟩ h0 p n').trans ?_
      show (outsAt0 m c k hk).2 (ix2 p n') + contribution m c ⟨k + 1, hn⟩ p n' = _
      rw [ih hk, contribution_eq m c ⟨k + 1, hn⟩ p n']
      show partialProduct m c k p n' + ∑ q : Fin 512, term _ _ (1024 * ((k + 1) / 16) + p.val) (2048 * ((k + 1) / 8 % 2) + n'.val) (512 * ((k + 1) % 8) + q.val) = _
      unfold partialProduct
      rw [show 512 * ((k + 1) % 8 + 1) = 512 * (k % 8 + 1) + 512 by omega, sum_extend,
        show (k + 1) / 16 = k / 16 by omega, show (k + 1) / 8 % 2 = k / 8 % 2 by omega,
        show 512 * ((k + 1) % 8) = 512 * (k % 8 + 1) by omega]

/-- So at the last point of a run the output block's entry is the whole row product. -/
theorem out_closed (c : Dev nD) (t : Fin cfg0.N) (h1 : t.val % 8 = 7) (p : Fin 1024) (n : Fin 2048)
    (hM : 1024 * (t.val / 16) + p.val < 8192) (hN : 2048 * (t.val / 8 % 2) + n.val < 4096) :
    (outsAt0 m c t.val t.isLt).1 (ix2 p n)
      = rowProduct (leftArr m c) (rightArr m c) ⟨1024 * (t.val / 16) + p.val, hM⟩ ⟨2048 * (t.val / 8 % 2) + n.val, hN⟩ := by
  rw [out_at_last m c t h1 p n, acc_closed m c p n t.val t.isLt]
  unfold partialProduct
  rw [show 512 * (t.val % 8 + 1) = 4096 by omega]
  exact sum_all (leftArr m c) (rightArr m c) ⟨1024 * (t.val / 16) + p.val, hM⟩ ⟨2048 * (t.val / 8 % 2) + n.val, hN⟩

end Cert.KernelIdeal.Body

end
-- ==== Proof.KernelValue.lean ====
/-
  From the blocks to the result.

  Only the last point of each run of eight (k = 7) writes its output block back, and it writes the whole row products
  of its block. The sixteen blocks so written tile the [8192, 4096] result, so every entry (M, N) of the result is the
  product of row M of the left array with row N of the right array. The program then re-lays the result as
  [4, 2048, 4096]; with the left array being x re-laid the other way and the right array being weight · float (mask),
  entry (b, s, o) is Σ_r x (b, s, r) · (weight (o, r) · float (mask (o, r))): the specification.
-/
import proofs.«168619_j66005057405275_2_alg».proof.Proof.Accum
import Idealize.ShloMosaic.Lib.StableHlo.Run

noncomputable section

namespace Cert.KernelIdeal.Body

open Cert.KernelIdeal Cert.KernelIdeal.Gen Idealize.ShloMosaic Idealize.ShloMosaic.TcCoe Idealize.SL.Sem
open Idealize.ShloMosaic.ValueIdx Idealize.ShloMosaic.StableHlo Cert.MaskedLinear
open Idealize.ShloMosaic.Pipeline (Dat)

variable (m : (ℓ : Loc nD τ sig) → Buf (Elt Ideal) ℓ) (ρ : Dev nD → PrngReg)

/-! ## The region's result array -/

/-- Every entry (M, N) is the product of row M of the left array with row N of the right array. -/
def product (c : Dev nD) : S8192x4096.Idx → EReal := fun j => rowProduct (leftArr m c) (rightArr m c) (j 0) (j 1)

/-- What a run's last point writes back is its block of that array. -/
theorem flushed_eq (c : Dev nD) (t : Fin cfg0.N) (hf : (cfg0.win 2).flush t = true) :
    (dats m 0 c).flushed 2 t = ((cfg0.win 2).blk t).view.read (Elt Ideal) (product m c) := by
  have h7 : t.val % 8 = 7 := (flush0_2 t).mp hf
  have ht := point_lt t
  show (cfg0.win 2).cut (grid0.coords t) ((dats m 0 c).after 2 t) = _
  rw [after0_2]
  funext j
  have hp : (j 0).val < 1024 := (j 0).isLt
  have hn : (j 1).val < 2048 := (j 1).isLt
  have hM : 1024 * (t.val / 16) + (j 0).val < 8192 := by omega
  have hN : 2048 * (t.val / 8 % 2) + (j 1).val < 4096 := by omega
  rw [View.read_apply]
  show (outsAt0 m c t.val t.isLt).1 ((cfg0.win 2).xinj (grid0.coords t) j) = product m c (((cfg0.win 2).blk t).view.emb j)
  rw [show (cfg0.win 2).xinj (grid0.coords t) j = ix2 (⟨(j 0).val, hp⟩ : Fin 1024) (⟨(j 1).val, hn⟩ : Fin 2048) from
    funext fun a => Fin.ext (by match a with | ⟨0, _⟩ => rfl | ⟨1, _⟩ => rfl)]
  rw [out_closed m c t h7 ⟨(j 0).val, hp⟩ ⟨(j 1).val, hn⟩ hM hN]
  show rowProduct _ _ _ _ = rowProduct _ _ ((((cfg0.win 2).blk t).view.emb j) 0) ((((cfg0.win 2).blk t).view.emb j) 1)
  congr 1
  · apply Fin.ext
    show 1024 * (t.val / 16) + (j 0).val = win0_2.index t 0 * 1024 + 1 * (j 0).val
    rw [(out_index t).1]; omega
  · apply Fin.ext
    show 2048 * (t.val / 8 % 2) + (j 1).val = win0_2.index t 1 * 2048 + 1 * (j 1).val
    rw [(out_index t).2]; omega

/-- An entry of the result lies in the output block of point t exactly when each coordinate lies in the block's range. -/
theorem mem_out_block (t : Fin cfg0.N) (i : S8192x4096.Idx) :
    i ∈ ((cfg0.win 2).blk t).view.set ↔ ∀ a : Fin 2, win0_2.index t a * S1024x2048.size a ≤ (i a).val ∧ (i a).val < win0_2.index t a * S1024x2048.size a + S1024x2048.size a := by
  show i ∈ ((View.whole main_v5).slice (win0_2.rect t)).set ↔ _
  rw [View.set_slice_whole, Rect.mem_set_unit]
  exact Iff.rfl

/-- Every entry (M, N) is written back: by the last point of the run of block (M / 1024, N / 2048). -/
theorem covered (i : S8192x4096.Idx) : ∃ t : Fin cfg0.N, (cfg0.win 2).flush t = true ∧ i ∈ ((cfg0.win 2).blk t).view.set := by
  have h0 : (i 0).val < 8192 := (i 0).isLt
  have h1 : (i 1).val < 4096 := (i 1).isLt
  have hN : cfg0.N = 128 := N_0
  let t : Fin cfg0.N := ⟨((i 0).val / 1024 * 2 + (i 1).val / 2048) * 8 + 7, by rw [hN]; omega⟩
  have tv : t.val = ((i 0).val / 1024 * 2 + (i 1).val / 2048) * 8 + 7 := rfl
  refine ⟨t, (flush0_2 t).mpr (by rw [tv]; omega), ?_⟩
  rw [mem_out_block]
  intro a
  match a with
  | ⟨0, _⟩ =>
    show win0_2.index t 0 * 1024 ≤ (i 0).val ∧ (i 0).val < win0_2.index t 0 * 1024 + 1024
    rw [(out_index t).1, tv]; omega
  | ⟨1, _⟩ =>
    show win0_2.index t 1 * 2048 ≤ (i 1).val ∧ (i 1).val < win0_2.index t 1 * 2048 + 2048
    rw [(out_index t).2, tv]; omega

/-- So the result array of the region ends holding the row products. -/
theorem final (c : Dev nD) : (dats m 0 c).arrAt 2 cfg0.N = product m c :=
  (dats m 0 c).arrAt_eq_of_cover 2 (product m c) (flushed_eq m c) (covered)

/-! ## The two arrays and the re-laying, entry by entry -/

/-- The program's three arguments as launched. -/
abbrev xArg (c : Dev nD) : SX.Idx → EReal := m ((c : Thread nD τ).loc main_arg0)
abbrev wArg (c : Dev nD) : SW.Idx → EReal := m ((c : Thread nD τ).loc main_arg1)
abbrev maskArg (c : Dev nD) : SW.Idx → Elt Ideal .i1 := m ((c : Thread nD τ).loc main_arg2)

/-- Row 2048·b + s of the left array is x (b, s, ·). -/
theorem left_entry (c : Dev nD) (b : Fin 4) (s : Fin 2048) (r : Fin 4096) (hM : 2048 * b.val + s.val < 8192) :
    leftArr m c (ix2 ⟨2048 * b.val + s.val, hM⟩ r) = xArg m c (ix3 b s r) := by
  refine (congrFun (left_array m c) _).trans ?_
  refine (shapeCast_apply _ _ _ (ix3 b s r) ?_).trans ?_
  · rw [Shape.rowMajor_val_three, Shape.rowMajor_val_two]
    show (b.val * 2048 + s.val) * 4096 + r.val = (2048 * b.val + s.val) * 4096 + r.val
    omega
  · rfl

/-- The right array is weight · float (mask). -/
theorem right_entry (c : Dev nD) (o r : Fin 4096) :
    rightArr m c (ix2 o r) = wArg m c (ix2 o r) * FloatOps.uitofp (F := Ideal) .f32 (maskArg m c (ix2 o r)) := by
  refine (congrFun (right_array m c) _).trans ?_
  rfl

/-- The re-laid result is the specification of the three arguments. -/
theorem relaid_eq (c : Dev nD) :
    shapeCast S4x2048x4096 (product m c) Facts₀.shapeCasts_S8192x4096_S4x2048x4096
      = result (xArg m c) (wArg m c) (maskArg m c) := by
  funext i
  obtain ⟨b, s, o, rfl⟩ : ∃ (b : Fin 4) (s : Fin 2048) (o : Fin 4096), i = ix3 b s o := ⟨i 0, i 1, i 2, eq_ix3 i⟩
  have hM : 2048 * b.val + s.val < 8192 := by have := b.isLt; have := s.isLt; omega
  refine (shapeCast_apply _ _ _ (ix2 (⟨2048 * b.val + s.val, hM⟩ : Fin 8192) o) ?_).trans ?_
  · rw [Shape.rowMajor_val_three, Shape.rowMajor_val_two]
    show (2048 * b.val + s.val) * 4096 + o.val = (b.val * 2048 + s.val) * 4096 + o.val
    omega
  · unfold product rowProduct result
    refine Finset.sum_congr rfl fun r _ => ?_
    show leftArr m c (ix2 ⟨2048 * b.val + s.val, hM⟩ r) * rightArr m c (ix2 o r) = _
    rw [left_entry m c b s r hM, right_entry m c o r]

/-! ## The program's last operation and the run -/

/-- The result buffer after the re-laying that follows the region. -/
theorem tail_eq (c : Dev nD) :
    Pipeline.afterTail₀ cfgs (dats m) 0 (V0 m) [hostOps1] c main_v6
      = shapeCast S4x2048x4096 (product m c) Facts₀.shapeCasts_S8192x4096_S4x2048x4096 := by
  unfold Pipeline.afterTail₀
  show StableHlo.after hostOps1 _ (Proc.devRef .tc main_v6) = _
  after_results
  have e := (Pipeline.withArrays_arr spec0 launch0.win.arr_inj c (V0 m c) (fun w => (dats m 0 c).arrAt w cfg0.N) 2).trans (final m c)
  refine Eq.trans ?_ (congrArg (fun X => shapeCast S4x2048x4096 X Facts₀.shapeCasts_S8192x4096_S4x2048x4096) e)
  rfl

/-- THE KERNEL'S RUN, read: every weakly fair execution terminates with the result buffer at the specification of the
    three arguments, and the arguments unchanged. -/
theorem run : θ_run defs (onTc (τ := τ) (main (F := Ideal))) ⟨m, fun _ => 0, ρ⟩ fun r => ∀ c : Dev nD,
      r.2.mem ((c : Thread nD τ).loc main_v6) = result (xArg m c) (wArg m c) (maskArg m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
      ⟨((h c).2 main_v6 (Pipeline.mem_restRefs_of main_v6 (by decide) (by decide))).trans ((tail_eq m c).trans (relaid_eq m c)),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.Body

end
-- ==== Proof.lean ====
/-
  Masked linear layer: out (b, s, o) = Σ_r x (b, s, r) · (weight (o, r) · float (mask (o, r))), with x of shape
  [4, 2048, 4096] and weight, mask of shape [4096, 4096].

  The reference computes exactly that: the mask converted to a float, multiplied into the weight, and one contraction
  of x with the product over the last axis of both.

  The kernel computes the same masked weight, re-lays x as an [8192, 4096] matrix, and multiplies the two matrices
  block by block on an 8 × 2 × 8 grid: for each [1024, 2048] block of the result it walks the 4096 contracted
  positions in eight steps of 512, adding each step's 512 products into an accumulator that starts at zero, and writes
  the accumulator out after the eighth step. At the ideal instance a change of float format is the identity and a sum
  does not depend on how it is grouped, so after the step at position k the accumulator holds the first 512·(k + 1)
  terms of the row product, after the eighth all 4096, and the two results agree entry by entry. Only regrouping of a
  finite sum is used (commutativity and associativity of addition on the extended reals), so the precondition that the
  inputs are finite is never opened.

  The idealization rewrote no operation of the kernel, so there is nothing to preserve.
-/
import proofs.«168619_j66005057405275_2_alg».proof.Defs
import proofs.«168619_j66005057405275_2_alg».proof.Proof.Gen.Kernel
import proofs.«168619_j66005057405275_2_alg».proof.Proof.Gen.Kernel.Skeleton
import proofs.«168619_j66005057405275_2_alg».proof.Proof.Gen.Kernel.Launch
import proofs.«168619_j66005057405275_2_alg».proof.Proof.Gen.Kernel.Points
import proofs.«168619_j66005057405275_2_alg».proof.Proof.Gen.Kernel.Frame
import proofs.«168619_j66005057405275_2_alg».proof.Proof.Gen.KernelIdeal
import proofs.«168619_j66005057405275_2_alg».proof.Proof.Gen.KernelIdeal.Skeleton
import proofs.«168619_j66005057405275_2_alg».proof.Proof.Gen.KernelIdeal.Launch
import proofs.«168619_j66005057405275_2_alg».proof.Proof.Gen.KernelIdeal.Points
import proofs.«168619_j66005057405275_2_alg».proof.Proof.Gen.KernelIdeal.Frame
import proofs.«168619_j66005057405275_2_alg».proof.Proof.Gen.ReferenceIdeal
import proofs.«168619_j66005057405275_2_alg».proof.Proof.Gen.Pre_finite_inputs
import proofs.«168619_j66005057405275_2_alg».proof.Proof.RefValue
import proofs.«168619_j66005057405275_2_alg».proof.Proof.KernelValue
import Idealize.ShloMosaic.Adequacy
import Idealize.ShloMosaic.Init

noncomputable section

namespace Cert.Proof

open Idealize.ShloMosaic Idealize.SL.Sem

/-- The word-level kernel runs, faults nowhere, and leaves its arguments as they were. -/
theorem frame_kernel : Cert.frame_Kernel := fun m ρ _ => Cert.Kernel.Gen.frame m ρ

/-- So does the kernel read at the ideal instance. -/
theorem frame_kernel_ideal : Cert.frame_KernelIdeal := fun m ρ _ => Cert.KernelIdeal.Gen.frame m ρ

/-- The reference is three host operations; its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- Both programs end with the result buffer at the specification of arguments that agree. -/
theorem algebraic : Cert.algebraic_KernelIdeal_ReferenceIdeal := by
  intro m ρ m' ρ' _ hagree
  refine ⟨fun c => Cert.MaskedLinear.result (Cert.KernelIdeal.Body.xArg m c) (Cert.KernelIdeal.Body.wArg m c) (Cert.KernelIdeal.Body.maskArg m c),
    Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.reference_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
